-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S1600000 .f32) (main_arg3 : FVec F S512x128 .f32) (main_arg4 : FVec F S128 .f32) (main_arg5 : FVec F S128x16 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S100000x128 : Shape := ⟨2, ![100000, 128]⟩
abbrev S2000x512 : Shape := ⟨2, ![2000, 512]⟩
abbrev S2000x128 : Shape := ⟨2, ![2000, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x16 : Shape := ⟨2, ![100000, 16]⟩
abbrev S2000x16 : Shape := ⟨2, ![2000, 16]⟩
abbrev S1600000x16 : Shape := ⟨2, ![1600000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 73
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x16, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S1600000x1, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x16, .f32⟩
  | .hbm, ⟨49, _⟩ => ⟨S1600000x16, .f32⟩
  | .hbm, ⟨50, _⟩ => ⟨S1600000x16, .f32⟩
  | .hbm, ⟨51, _⟩ => ⟨S_, .f32⟩
  | .hbm, ⟨52, _⟩ => ⟨S100000x16, .f32⟩
  | .hbm, ⟨53, _⟩ => ⟨S1600000x1, .i32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x16, .f32⟩
  | .hbm, ⟨72, _⟩ => ⟨S100000x16, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x16, .f32⟩
  | .local _ .vmem, ⟨8, _⟩ => ⟨S2000x16, .f32⟩
  | .local _ .vmem, ⟨9, _⟩ => ⟨S2000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x16_S2000x16_1_0_0_1_n_n_wf : DotDims.WF S2000x128 S128x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S128x16 : Shape := ⟨2, ![128, 16]⟩
abbrev S16 : Shape := ⟨1, ![16]⟩
abbrev S100000x128 : Shape := ⟨2, ![100000, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x16 : Shape := ⟨2, ![100000, 16]⟩
abbrev S1600000x16 : Shape := ⟨2, ![1600000, 16]⟩
abbrev S1x16 : Shape := ⟨2, ![1, 16]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x16, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S1600000x1, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x16, .f32⟩
  | .hbm, ⟨49, _⟩ => ⟨S1600000x16, .f32⟩
  | .hbm, ⟨50, _⟩ => ⟨S1600000x16, .f32⟩
  | .hbm, ⟨51, _⟩ => ⟨S_, .f32⟩
  | .hbm, ⟨52, _⟩ => ⟨S100000x16, .f32⟩
  | .hbm, ⟨53, _⟩ => ⟨S1600000x1, .i32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S_, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000, .f32⟩
  | .hbm, ⟨69, _⟩ => ⟨S100000x1, .f32⟩
  | .hbm, ⟨70, _⟩ => ⟨S100000x1, .f32⟩
  | .hbm, ⟨71, _⟩ => ⟨S100000x16, .f32⟩
  | .hbm, ⟨72, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.WholeRun.lean ====
/-
  The idealized kernel's run, with every buffer named.

  The program is two grid regions among four stretches of host operations. The contents of the TensorCore's buffers
  at each boundary form a fold from the launch memory: a stretch of host operations applies its operations in order,
  and a region replaces its three arrays by what its write-backs leave and keeps every other buffer. Every weakly fair
  execution terminates, and in the final memory EVERY buffer that is not scoped to a region holds the last stage of
  that fold — the result buffer among them, which is what the value of the program is read from.
-/
import proofs.«171190_j38628935860962_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and
    every buffer not scoped to a region ends at the last stage of the fold through the program's segments. -/
theorem run_buffers : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.KernelIdeal.WholeRun

end
-- ==== Proof.Layers.lean ====
/-
  The host side of one graph-convolution layer, after its matrix product.

  Both programs compute, for a node-feature matrix `h` (one row per node), an edge list `ei` (row 0 the source node of
  each edge, row 1 its target), edge weights `ew` and a bias `b`:
      out[n, :] = b + the sum over the edges e whose target is n of ew[e] · h[source e, :]
  — the rows of `h` gathered at the edges' sources (a negative source counts from the end: +100000), each scaled by its
  edge's weight, and added into a zero matrix at the edges' targets —, followed by `max(·, 0)` in the first layer and
  by the row-wise log-softmax, x − max x − log (the sum of exp (x − max x)), in the second. They are stated here ONCE, as
  functions of `h` and the arguments, so that the two programs' results can be compared without ever opening them:
  the programs differ only in how `h` is produced.
-/
import proofs.«171190_j38628935860962_1_alg».proof.KernelIdeal

noncomputable section

namespace Cert.KernelIdeal.Layers

open Cert.KernelIdeal Idealize.ShloMosaic
open Cert.KernelIdeal.Facts₀ Cert.KernelIdeal.Facts

variable [Cert.KernelIdeal.Facts]
variable {F : FTy → Type} [FloatOps F]

/-- Row `0` of the edge list, flat: each edge's source node. -/
def sourceRow (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Each edge's source as a row index: a negative one counts from the end (`+ 100000`). One column. -/
def sources (ei : (⟨S2x1600000, .i32⟩ : BufTy).Contents (Elt F)) : (⟨S1600000x1, .i32⟩ : BufTy).Contents (Elt F) :=
  broadcastInDim S1600000x1 ![0] bcast_S1600000_S1600000x1_0
    (select (cmpi .slt (sourceRow ei) (broadcastInDim S1600000 ![] bcast_S_S1600000 (constantI S_ 32 0#32)))
      (addi (sourceRow ei) (broadcastInDim S1600000 ![] bcast_S_S1600000 (constantI S_ 32 100000#32)))
      (sourceRow ei))

/-- Row `1` of the edge list as one column: each edge's target node. -/
def targets (ei : (⟨S2x1600000, .i32⟩ : BufTy).Contents (Elt F)) : (⟨S1600000x1, .i32⟩ : BufTy).Contents (Elt F) :=
  broadcastInDim S1600000x1 ![0] bcast_S1600000_S1600000x1_0
    (shapeCast S1600000 (extractStridedSlice S1x1600000 ![1, 0] ei slices_S2x1600000_S1x1600000_1_0) shapeCasts_S1x1600000_S1600000)

/-- The edge weights as one column. -/
def weightColumn (ew : (⟨S1600000, .f32⟩ : BufTy).Contents (Elt F)) : (⟨S1600000x1, .f32⟩ : BufTy).Contents (Elt F) :=
  broadcastInDim S1600000x1 ![0] bcast_S1600000_S1600000x1_0 ew

/-- The first layer's sum after its product `h` (128 features): weighted rows summed at the targets, plus the bias. -/
def layerOneSum (h : (⟨S100000x128, .f32⟩ : BufTy).Contents (Elt F)) (ei : (⟨S2x1600000, .i32⟩ : BufTy).Contents (Elt F))
    (ew : (⟨S1600000, .f32⟩ : BufTy).Contents (Elt F)) (b : (⟨S128, .f32⟩ : BufTy).Contents (Elt F)) :
    (⟨S100000x128, .f32⟩ : BufTy).Contents (Elt F) :=
  addf
    (Host.scatterAdd scatter_S100000x128_S1600000x1_S1600000x128_1_0_0_1
      (broadcastInDim S100000x128 ![] bcast_S_S100000x128 (constant S_ .f32 0x00000000#32))
      (targets ei)
      (mulf (broadcastInDim S1600000x128 ![0, 1] bcast_S1600000x1_S1600000x128_0_1 (weightColumn ew))
        (Host.gather gather_S100000x128_S1600000x1_S1600000x128_1_0_n_n_0_1_1128 h (sources ei))))
    (broadcastInDim S100000x128 ![0, 1] bcast_S1x128_S100000x128_0_1 (broadcastInDim S1x128 ![1] bcast_S128_S1x128_1 b))

/-- `max(·, 0)`, entry by entry. -/
def positivePart (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- The first layer after its product `h`: the sum plus the bias, then `max(·, 0)`. -/
def layerOne (h : (⟨S100000x128, .f32⟩ : BufTy).Contents (Elt F)) (ei : (⟨S2x1600000, .i32⟩ : BufTy).Contents (Elt F))
    (ew : (⟨S1600000, .f32⟩ : BufTy).Contents (Elt F)) (b : (⟨S128, .f32⟩ : BufTy).Contents (Elt F)) :
    (⟨S100000x128, .f32⟩ : BufTy).Contents (Elt F) :=
  positivePart (layerOneSum h ei ew b)

/-- The second layer's sum after its product `h` (16 classes): weighted rows summed at the targets, plus the bias. -/
def layerTwoSum (h : (⟨S100000x16, .f32⟩ : BufTy).Contents (Elt F)) (ei : (⟨S2x1600000, .i32⟩ : BufTy).Contents (Elt F))
    (ew : (⟨S1600000, .f32⟩ : BufTy).Contents (Elt F)) (b : (⟨S16, .f32⟩ : BufTy).Contents (Elt F)) :
    (⟨S100000x16, .f32⟩ : BufTy).Contents (Elt F) :=
  addf
    (Host.scatterAdd scatter_S100000x16_S1600000x1_S1600000x16_1_0_0_1
      (broadcastInDim S100000x16 ![] bcast_S_S100000x16 (constant S_ .f32 0x00000000#32))
      (targets ei)
      (mulf (broadcastInDim S1600000x16 ![0, 1] bcast_S1600000x1_S1600000x16_0_1 (weightColumn ew))
        (Host.gather gather_S100000x16_S1600000x1_S1600000x16_1_0_n_n_0_1_116 h (sources ei))))
    (broadcastInDim S100000x16 ![0, 1] bcast_S1x16_S100000x16_0_1 (broadcastInDim S1x16 ![1] bcast_S16_S1x16_1 b))

/-- A row's maximum, spread back over the row's 16 entries (the maximum taken from `−∞`, and once more against `−∞`). -/
def rowMax (x : (⟨S100000x16, .f32⟩ : BufTy).Contents (Elt F)) : (⟨S100000x16, .f32⟩ : BufTy).Contents (Elt F) :=
  broadcastInDim S100000x16 ![0, 1] bcast_S100000x1_S100000x16_0_1
    (broadcastInDim S100000x1 ![0] bcast_S100000_S100000x1_0
      (maximumf (broadcastInDim S100000 ![] bcast_S_S100000 (constant S_ .f32 0xFF800000#32))
        (Host.reduce FloatOps.maximumf x (constant S_ .f32 0xFF800000#32) reducesTo_S100000x16_S100000_d1 h_S_)))

/-- The row-wise log-softmax: `x − max x − log (the row's sum of exp (x − max x))`. -/
def logSoftmax (x : (⟨S100000x16, .f32⟩ : BufTy).Contents (Elt F)) : (⟨S100000x16, .f32⟩ : BufTy).Contents (Elt F) :=
  subf (subf x (rowMax x))
    (broadcastInDim S100000x16 ![0, 1] bcast_S100000x1_S100000x16_0_1
      (Host.log (broadcastInDim S100000x1 ![0] bcast_S100000_S100000x1_0
        (Host.reduceAdd (Host.exp (subf x (rowMax x))) (constant S_ .f32 0x00000000#32) reducesTo_S100000x16_S100000_d1 h_S_))))

/-- The second layer after its product `h`: the sum plus the bias, then the row-wise log-softmax. -/
def layerTwo (h : (⟨S100000x16, .f32⟩ : BufTy).Contents (Elt F)) (ei : (⟨S2x1600000, .i32⟩ : BufTy).Contents (Elt F))
    (ew : (⟨S1600000, .f32⟩ : BufTy).Contents (Elt F)) (b : (⟨S16, .f32⟩ : BufTy).Contents (Elt F)) :
    (⟨S100000x16, .f32⟩ : BufTy).Contents (Elt F) :=
  logSoftmax (layerTwoSum h ei ew b)

end Cert.KernelIdeal.Layers

end
-- ==== Proof.LibTypedRef.lean ====
/-
  Typed references to buffers.

  A typed reference is a buffer together with the fact that the buffer's type is a given one; contents at that type are
  carried to the buffer's own type and back along that fact. Carrying there and back changes nothing — for every typed
  reference, with no need to know which buffer it is. Operations of a called function read their operands and write
  their results through such references, so a chain of them nests these round trips; rewriting with this lemma removes
  every one of them.
-/
import Idealize.ShloMosaic.Lib.StableHlo

noncomputable section

namespace Cert.Lib.TypedRef

open Idealize.ShloMosaic

/-- Contents carried to a typed reference's buffer and back are unchanged. General: it holds of every typed reference
    `x` and every value `v` of its type (destructure `x`, substitute its type equation; the two transports are then along
    `rfl`). Use: `simp only [Cert.Lib.TypedRef.ofBuf_toBuf]` on what a chain of a called function's operations leaves. -/
theorem ofBuf_toBuf {sig : RefSig} {T : BufTy} {Val : EltTy → Type} (x : StableHlo.TRef sig T) (v : T.Contents Val) :
    x.ofBuf (x.toBuf v) = v := by
  obtain ⟨r, h, _, _⟩ := x
  subst h
  rfl

/-- The other round trip: contents of the buffer read at the reference's type and carried back are unchanged. -/
theorem toBuf_ofBuf {sig : RefSig} {T : BufTy} {Val : EltTy → Type} (x : StableHlo.TRef sig T) (v : x.ref.ty.Contents Val) :
    x.toBuf (x.ofBuf v) = v := by
  obtain ⟨r, h, _, _⟩ := x
  subst h
  rfl

end Cert.Lib.TypedRef

end
-- ==== Proof.Stretches.lean ====
/-
  The host operations between and after the two regions, read as the layers' functions.

  Whatever the buffers hold when a stretch of host operations starts, the buffer the stretch ends in holds the layer's
  function of the matrix product's buffer and of the argument buffers the stretch reads: the operations are exactly the
  layer's steps, each writing a buffer no later step of the stretch overwrites. Each stretch is read in two steps — the
  23 operations up to the sum plus the bias, then the called function's operations (`max(·, 0)`, or the log-softmax) as a
  function of the one buffer they read — and the two are composed.
-/
import proofs.«171190_j38628935860962_1_alg».proof.Proof.Gen.KernelIdeal.Launch
import proofs.«171190_j38628935860962_1_alg».proof.Proof.Layers
import proofs.«171190_j38628935860962_1_alg».proof.Proof.LibTypedRef
import Idealize.ShloMosaic.Lib.StableHlo.Run
import Idealize.ShloMosaic.PureOps.Ideal

set_option maxRecDepth 16384

noncomputable section

namespace Cert.KernelIdeal.Stretches

open Cert.KernelIdeal Cert.KernelIdeal.Gen Idealize.ShloMosaic Idealize.ShloMosaic.TcCoe Idealize.SL.Sem Idealize.ShloMosaic.StableHlo

set_option maxHeartbeats 8000000 in
/-- The first layer's 23 operations leave, in their last buffer, the weighted edge sum of the first product's rows plus
    the first bias. -/
theorem firstSum (W : Valuation τ sig (Elt Ideal)) :
    StableHlo.after (hostOps1 (F := Ideal)) W (Proc.devRef .tc main_v20)
      = Layers.layerOneSum (F := Ideal) (W (Proc.devRef .tc main_v0)) (W (Proc.devRef .tc main_arg1)) (W (Proc.devRef .tc main_arg2))
          (W (Proc.devRef .tc main_arg4)) := by
  after_results_simp <;> rfl

/-- The three operations of `max(·, 0)` leave it of the buffer they read: a called function's operations read and write
    through typed references, and the round trips through them cancel. -/
theorem firstPositive (X : Valuation τ sig (Elt Ideal)) :
    StableHlo.after (hostOps1_1 (F := Ideal)) X (Proc.devRef .tc main_v21)
      = Layers.positivePart (F := Ideal) (X (Proc.devRef .tc main_v20)) := by
  after_results_simp
  simp only [Cert.Lib.TypedRef.ofBuf_toBuf]
  rfl

/-- After the first region's host operations, the buffer the second region reads as its left matrix holds the first
    layer's function of the first product's buffer, the edge list, the edge weights and the first bias. -/
theorem first (W : Valuation τ sig (Elt Ideal)) :
    StableHlo.after (hostOps1_1 (F := Ideal)) (StableHlo.after (hostOps1 (F := Ideal)) W) (Proc.devRef .tc main_v21)
      = Layers.layerOne (F := Ideal) (W (Proc.devRef .tc main_v0)) (W (Proc.devRef .tc main_arg1)) (W (Proc.devRef .tc main_arg2))
          (W (Proc.devRef .tc main_arg4)) := by
  rw [firstPositive, firstSum]
  rfl

set_option maxHeartbeats 8000000 in
/-- The second layer's 23 operations leave, in their last buffer, the weighted edge sum of the second product's rows plus
    the second bias. -/
theorem secondSum (W : Valuation τ sig (Elt Ideal)) :
    StableHlo.after (hostOps2 (F := Ideal)) W (Proc.devRef .tc main_v42)
      = Layers.layerTwoSum (F := Ideal) (W (Proc.devRef .tc main_v22)) (W (Proc.devRef .tc main_arg1)) (W (Proc.devRef .tc main_arg2))
          (W (Proc.devRef .tc main_arg6)) := by
  after_results_simp <;> rfl

set_option maxHeartbeats 8000000 in
/-- The fifteen operations of the log-softmax leave it of the buffer they read. -/
theorem secondSoftmax (X : Valuation τ sig (Elt Ideal)) :
    StableHlo.after (hostOps2_1 (F := Ideal)) X (Proc.devRef .tc main_v43)
      = Layers.logSoftmax (F := Ideal) (X (Proc.devRef .tc main_v42)) := by
  after_results_simp
  simp only [Cert.Lib.TypedRef.ofBuf_toBuf]
  rfl

/-- After the second region's host operations, the result buffer holds the second layer's function of the second
    product's buffer, the edge list, the edge weights and the second bias. -/
theorem second (W : Valuation τ sig (Elt Ideal)) :
    StableHlo.after (hostOps2_1 (F := Ideal)) (StableHlo.after (hostOps2 (F := Ideal)) W) (Proc.devRef .tc main_v43)
      = Layers.layerTwo (F := Ideal) (W (Proc.devRef .tc main_v22)) (W (Proc.devRef .tc main_arg1)) (W (Proc.devRef .tc main_arg2))
          (W (Proc.devRef .tc main_arg6)) := by
  rw [secondSoftmax, secondSum]
  rfl

end Cert.KernelIdeal.Stretches

end
-- ==== Proof.BlockProduct.lean ====
/-
  The two kernel bodies, read at an entry of the block they store.

  Each body loads a block of 2000 rows of the left matrix and the whole right matrix, changes both to bf16,
  multiplies them into a zero accumulator and stores the 2000-row block of the product. Over the exact extended
  reals the change of format is the identity and the accumulator contributes nothing, so the stored block is, entry
  by entry, the sum over the contracted index `k` of (row, k) of the left block times (k, column) of the right one.
  No finiteness is needed: the sum is the same sum, term for term, as the one a whole-matrix product takes.
-/
import proofs.«171190_j38628935860962_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic

/-! ## Region 0: the body's product at an entry of its block -/

/-- Entry (row of `y`, `k`) of the left block. -/
abbrev lhsEntry0 (y : S2000x128.Idx) (k : Fin 512) : S2000x512.Idx := fun a => match a with
  | ⟨0, _⟩ => ⟨(y 0).val, (y 0).isLt⟩
  | ⟨1, _⟩ => ⟨k.val, k.isLt⟩
/-- Entry (`k`, column of `y`) of the right block. -/
abbrev rhsEntry0 (y : S2000x128.Idx) (k : Fin 512) : S512x128.Idx := fun a => match a with
  | ⟨0, _⟩ => ⟨k.val, k.isLt⟩
  | ⟨1, _⟩ => ⟨(y 1).val, (y 1).isLt⟩

theorem lhsRow0 (i : S2000x128.Idx) (q : dot_S2000x512_S512x128_S2000x128_1_0_0_1_n_n.contr.Idx) : (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhsCol0 (i : S2000x128.Idx) (q : dot_S2000x512_S512x128_S2000x128_1_0_0_1_n_n.contr.Idx) : (dot_S2000x512_S512x128_S2000x128_1_0_0_1_n_n.lhsIdx i q 1).val = (q ⟨0, by decide⟩).val :=
  dot_S2000x512_S512x128_S2000x128_1_0_0_1_n_n.lhsIdx_val_of_single rfl i q
theorem rhsRow0 (i : S2000x128.Idx) (q : dot_S2000x512_S512x128_S2000x128_1_0_0_1_n_n.contr.Idx) : (dot_S2000x512_S512x128_S2000x128_1_0_0_1_n_n.rhsIdx i q 0).val = (q ⟨0, by decide⟩).val :=
  dot_S2000x512_S512x128_S2000x128_1_0_0_1_n_n.rhsIdx_val_of_single rfl i q
theorem rhsCol0 (i : S2000x128.Idx) (q : dot_S2000x512_S512x128_S2000x128_1_0_0_1_n_n.contr.Idx) : (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- At the exact reals a change of float format is the identity and a product accumulated into zero is the plain sum:
    the body stores, at entry `y` of its block, the sum over `k` of (row of `y`, `k`) of the left block times
    (`k`, column of `y`) of the right block. -/
theorem k0_pay1_apply (x0 : Vec Ideal S2000x512 .f32) (x1 : Vec Ideal S512x128 .f32) (y : S2000x128.Idx) :
    k0_pay1 (F := Ideal) x0 x1 y = ∑ k : Fin 512, x0 (lhsEntry0 y k) * x1 (rhsEntry0 y k) := by
  show FloatOps.matmul (F := Ideal) dot_S2000x512_S512x128_S2000x128_1_0_0_1_n_n none (truncf .bf16 x0 bitsLt_bf16_f32) (truncf .bf16 x1 bitsLt_bf16_f32)
      (constant S2000x128 .f32 0x00000000#32) y = _
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx y ((ValueIdx.contrEquiv1 dot_S2000x512_S512x128_S2000x128_1_0_0_1_n_n 512 rfl rfl).symm k) = lhsEntry0 y k := funext fun a => Fin.ext (by
    match a with
    | ⟨0, _⟩ => exact lhsRow0 _ _
    | ⟨1, _⟩ => exact (lhsCol0 _ _).trans hk)
  have er : dot_S2000x512_S512x128_S2000x128_1_0_0_1_n_n.rhsIdx y ((ValueIdx.contrEquiv1 dot_S2000x512_S512x128_S2000x128_1_0_0_1_n_n 512 rfl rfl).symm k) = rhsEntry0 y k := funext fun a => Fin.ext (by
    match a with
    | ⟨0, _⟩ => exact (rhsRow0 _ _).trans hk
    | ⟨1, _⟩ => exact rhsCol0 _ _)
  rw [el, er]
  rfl

/-! ## Region 1: the body's product at an entry of its block -/

/-- Entry (row of `y`, `k`) of the left block. -/
abbrev lhsEntry1 (y : S2000x16.Idx) (k : Fin 128) : S2000x128.Idx := fun a => match a with
  | ⟨0, _⟩ => ⟨(y 0).val, (y 0).isLt⟩
  | ⟨1, _⟩ => ⟨k.val, k.isLt⟩
/-- Entry (`k`, column of `y`) of the right block. -/
abbrev rhsEntry1 (y : S2000x16.Idx) (k : Fin 128) : S128x16.Idx := fun a => match a with
  | ⟨0, _⟩ => ⟨k.val, k.isLt⟩
  | ⟨1, _⟩ => ⟨(y 1).val, (y 1).isLt⟩

theorem lhsRow1 (i : S2000x16.Idx) (q : dot_S2000x128_S128x16_S2000x16_1_0_0_1_n_n.contr.Idx) : (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhsCol1 (i : S2000x16.Idx) (q : dot_S2000x128_S128x16_S2000x16_1_0_0_1_n_n.contr.Idx) : (dot_S2000x128_S128x16_S2000x16_1_0_0_1_n_n.lhsIdx i q 1).val = (q ⟨0, by decide⟩).val :=
  dot_S2000x128_S128x16_S2000x16_1_0_0_1_n_n.lhsIdx_val_of_single rfl i q
theorem rhsRow1 (i : S2000x16.Idx) (q : dot_S2000x128_S128x16_S2000x16_1_0_0_1_n_n.contr.Idx) : (dot_S2000x128_S128x16_S2000x16_1_0_0_1_n_n.rhsIdx i q 0).val = (q ⟨0, by decide⟩).val :=
  dot_S2000x128_S128x16_S2000x16_1_0_0_1_n_n.rhsIdx_val_of_single rfl i q
theorem rhsCol1 (i : S2000x16.Idx) (q : dot_S2000x128_S128x16_S2000x16_1_0_0_1_n_n.contr.Idx) : (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-- At the exact reals a change of float format is the identity and a product accumulated into zero is the plain sum:
    the body stores, at entry `y` of its block, the sum over `k` of (row of `y`, `k`) of the left block times
    (`k`, column of `y`) of the right block.
    (This body first re-casts its left block to the shape it already has: the identity.) -/
theorem k1_pay1_apply (x0 : Vec Ideal S2000x128 .f32) (x1 : Vec Ideal S128x16 .f32) (y : S2000x16.Idx) :
    k1_pay1 (F := Ideal) x0 x1 y = ∑ k : Fin 128, x0 (lhsEntry1 y k) * x1 (rhsEntry1 y k) := by
  show FloatOps.matmul (F := Ideal) dot_S2000x128_S128x16_S2000x16_1_0_0_1_n_n none (truncf .bf16 (shapeCast S2000x128 x0 shapeCasts_S2000x128_S2000x128) bitsLt_bf16_f32)
      (truncf .bf16 x1 bitsLt_bf16_f32) (constant S2000x16 .f32 0x00000000#32) y = _
  rw [Ideal.matmul_constant_zero_apply, ← Equiv.sum_comp (ValueIdx.contrEquiv1 dot_S2000x128_S128x16_S2000x16_1_0_0_1_n_n 128 rfl rfl).symm]
  refine Finset.sum_congr rfl fun k _ => ?_
  have hk := ValueIdx.contrEquiv1_symm_val dot_S2000x128_S128x16_S2000x16_1_0_0_1_n_n 128 rfl rfl k
  have el : dot_S2000x128_S128x16_S2000x16_1_0_0_1_n_n.lhsIdx y ((ValueIdx.contrEquiv1 dot_S2000x128_S128x16_S2000x16_1_0_0_1_n_n 128 rfl rfl).symm k) = lhsEntry1 y k := funext fun a => Fin.ext (by
    match a with
    | ⟨0, _⟩ => exact lhsRow1 _ _
    | ⟨1, _⟩ => exact (lhsCol1 _ _).trans hk)
  have er : dot_S2000x128_S128x16_S2000x16_1_0_0_1_n_n.rhsIdx y ((ValueIdx.contrEquiv1 dot_S2000x128_S128x16_S2000x16_1_0_0_1_n_n 128 rfl rfl).symm k) = rhsEntry1 y k := funext fun a => Fin.ext (by
    match a with
    | ⟨0, _⟩ => exact (rhsRow1 _ _).trans hk
    | ⟨1, _⟩ => exact rhsCol1 _ _)
  rw [el, er, shapeCast_self]
  rfl

end Cert.KernelIdeal.BlockProduct

end
-- ==== Proof.RegionArray.lean ====
/-
  Each region's output array, whole.

  A region's grid has fifty points; point `t` fetches rows 2000·t … 2000·t + 1999 of the left matrix and the whole
  right matrix, and writes back the same rows of the output. By the body's product at an entry of its block, what
  point `t` writes back is block `t` of ONE function of the two arrays as the region finds them: the matrix product,
  entry (r, n) the sum over `k` of left (r, k) times right (k, n). The fifty blocks tile the output's 100000 rows, so
  after the region the output array IS that product. Stated for arbitrary entry contents, since the second region is
  entered with what the host operations between the regions computed.
-/
import proofs.«171190_j38628935860962_1_alg».proof.Proof.Gen.KernelIdeal.Frame
import proofs.«171190_j38628935860962_1_alg».proof.Proof.BlockProduct

set_option maxRecDepth 16384

noncomputable section

namespace Cert.KernelIdeal.RegionArray

open Cert.KernelIdeal Cert.KernelIdeal.Gen Idealize.ShloMosaic Idealize.ShloMosaic.TcCoe Idealize.SL.Sem
open Idealize.ShloMosaic.Pipeline (Dat Cfg Window)

theorem zeroOffsets : (![0, 0] : Fin 2 → Nat) = fun _ => 0 := funext fun a => by fin_cases a <;> rfl

/-! ## Region 0 -/

/-- Entry (row of `i`, `k`) of the left matrix. -/
abbrev lhsAt0 (i : S100000x128.Idx) (k : Fin 512) : S100000x512.Idx := fun a => match a with
  | ⟨0, _⟩ => ⟨(i 0).val, (i 0).isLt⟩
  | ⟨1, _⟩ => ⟨k.val, k.isLt⟩
/-- Entry (`k`, column of `i`) of the right matrix. -/
abbrev rhsAt0 (i : S100000x128.Idx) (k : Fin 512) : S512x128.Idx := fun a => match a with
  | ⟨0, _⟩ => ⟨k.val, k.isLt⟩
  | ⟨1, _⟩ => ⟨(i 1).val, (i 1).isLt⟩

/-- The product of the whole matrices, entry by entry: the sum over `k` of (row, k) times (k, column). -/
def product0 (x : S100000x512.Idx → Elt Ideal .f32) (w : S512x128.Idx → Elt Ideal .f32) : S100000x128.Idx → Elt Ideal .f32 :=
  fun i => ∑ k : Fin 512, x (lhsAt0 i k) * w (rhsAt0 i k)

/-- An entry of a stored block is an entry of the whole product, as soon as the block's row is the whole left matrix's
    row and the block's column the whole right matrix's column (entry for entry along `k`). -/
theorem entry_of_block0 (X : S100000x512.Idx → Elt Ideal .f32) (Y : S512x128.Idx → Elt Ideal .f32)
    (x0 : Vec Ideal S2000x512 .f32) (x1 : Vec Ideal S512x128 .f32) (j : S2000x128.Idx) (i : S100000x128.Idx)
    (h0 : ∀ k : Fin 512, x0 (BlockProduct.lhsEntry0 j k) = X (lhsAt0 i k))
    (h1 : ∀ k : Fin 512, x1 (BlockProduct.rhsEntry0 j k) = Y (rhsAt0 i k)) :
    k0_pay1 (F := Ideal) x0 x1 j = product0 X Y i := by
  rw [BlockProduct.k0_pay1_apply]
  unfold product0
  exact Finset.sum_congr rfl fun k _ => by rw [h0 k, h1 k]

/-- The printed index maps over the grid: the left operand's block and the output's block are the point's block of
    2000 rows, all columns; the right operand's block is the whole matrix at every point. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` — rows 2000·t to 2000·t + 1999 — of the product of the two arrays
    as the region finds them. -/
theorem flushed0 (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (product0 (V c main_arg0) (V c main_arg3)) := by
  show (cfg0.win 2).cut (grid0.coords t) ((dat0 V c).after 2 t) = _
  rw [after0_2]
  unfold out0_2
  rw [View.canon_unit_zero zeroOffsets]
  simp only [View.ld_unit_zero (S := S2000x512) zeroOffsets, View.ld_unit_zero (S := S512x128) zeroOffsets]
  obtain ⟨e0, e1, e2, e3, e4, e5⟩ := blockIndex0 t
  funext j
  refine entry_of_block0 (V c main_arg0) (V c main_arg3) (iblk0 V c 0 t) (iblk0 V c 1 t) j (((cfg0.win 2).blk t).view.emb j) (fun k => ?_) (fun k => ?_)
  · show V c main_arg0 (((cfg0.win 0).blk t).view.emb (BlockProduct.lhsEntry0 j k)) = V c main_arg0 (lhsAt0 (((cfg0.win 2).blk t).view.emb j) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_arg3 (((cfg0.win 1).blk t).view.emb (BlockProduct.rhsEntry0 j k)) = V c main_arg3 (rhsAt0 (((cfg0.win 2).blk t).view.emb j) k)
    refine congrArg (V c main_arg3) ?_
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega

/-- An entry of the output array is in point `t`'s block iff each coordinate is in the block's range on its axis. -/
theorem mem_block0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The fifty blocks of 2000 rows tile the 100000 rows: row `r` is in the block of point `r / 2000`. -/
theorem covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 2000, by show (i 0).val / 2000 < 50; omega⟩, flush0_2 _, ?_⟩
  rw [mem_block0]
  obtain ⟨-, -, -, -, e4, e5⟩ := blockIndex0 ⟨(i 0).val / 2000, by show (i 0).val / 2000 < 50; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e5]; omega

/-- After the region its output array is the product of the two arrays it was entered with, whole. -/
theorem array0 (V : (c : Dev nD) → (b : Ref sig .tc) → Buf (Elt Ideal) ((c : Thread nD τ).loc b)) (c : Dev nD) :
    (dat0 (F := Ideal) V c).arrAt 2 cfg0.N = product0 (V c main_arg0) (V c main_arg3) :=
  (dat0 (F := Ideal) V c).arrAt_eq_of_cover 2 (product0 (V c main_arg0) (V c main_arg3)) (fun t _ => flushed0 V c t) covered0

/-! ## Region 1 -/

/-- Entry (row of `i`, `k`) of the left matrix. -/
abbrev lhsAt1 (i : S100000x16.Idx) (k : Fin 128) : S100000x128.Idx := fun a => match a with
  | ⟨0, _⟩ => ⟨(i 0).val, (i 0).isLt⟩
  | ⟨1, _⟩ => ⟨k.val, k.isLt⟩
/-- Entry (`k`, column of `i`) of the right matrix. -/
abbrev rhsAt1 (i : S100000x16.Idx) (k : Fin 128) : S128x16.Idx := fun a => match a with
  | ⟨0, _⟩ => ⟨k.val, k.isLt⟩
  | ⟨1, _⟩ => ⟨(i 1).val, (i 1).isLt⟩

/-- The product of the whole matrices, entry by entry: the sum over `k` of (row, k) times (k, column). -/
def product1 (x : S100000x128.Idx → Elt Ideal .f32) (w : S128x16.Idx → Elt Ideal .f32) : S100000x16.Idx → Elt Ideal .f32 :=
  fun i => ∑ k : Fin 128, x (lhsAt1 i k) * w (rhsAt1 i k)

/-- An entry of a stored block is an entry of the whole product, as soon as the block's row is the whole left matrix's
    row and the block's column the whole right matrix's column (entry for entry along `k`). -/
theorem entry_of_block1 (X : S100000x128.Idx → Elt Ideal .f32) (Y : S128x16.Idx → Elt Ideal .f32)
    (x0 : Vec Ideal S2000x128 .f32) (x1 : Vec Ideal S128x16 .f32) (j : S2000x16.Idx) (i : S100000x16.Idx)
    (h0 : ∀ k : Fin 128, x0 (BlockProduct.lhsEntry1 j k) = X (lhsAt1 i k))
    (h1 : ∀ k : Fin 128, x1 (BlockProduct.rhsEntry1 j k) = Y (rhsAt1 i k)) :
    k1_pay1 (F := Ideal) x0 x1 j = product1 X Y i := by
  rw [BlockProduct.k1_pay1_apply]
  unfold product1
  exact Finset.sum_congr rfl fun k _ => by rw [h0 k, h1 k]

/-- The printed index maps over the grid: the left operand's block and the output's block are the point's block of
    2000 rows, all columns; the right operand's block is the whole matrix at every point. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` — rows 2000·t to 2000·t + 1999 — of the product of the two arrays
    as the region finds them. -/
theorem flushed1 (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (product1 (V c main_v21) (V c main_arg5)) := by
  show (cfg1.win 2).cut (grid1.coords t) ((dat1 V c).after 2 t) = _
  rw [after1_2]
  unfold out1_2
  rw [View.canon_unit_zero zeroOffsets]
  simp only [View.ld_unit_zero (S := S2000x128) zeroOffsets, View.ld_unit_zero (S := S128x16) zeroOffsets]
  obtain ⟨e0, e1, e2, e3, e4, e5⟩ := blockIndex1 t
  funext j
  refine entry_of_block1 (V c main_v21) (V c main_arg5) (iblk1 V c 0 t) (iblk1 V c 1 t) j (((cfg1.win 2).blk t).view.emb j) (fun k => ?_) (fun k => ?_)
  · show V c main_v21 (((cfg1.win 0).blk t).view.emb (BlockProduct.lhsEntry1 j k)) = V c main_v21 (lhsAt1 (((cfg1.win 2).blk t).view.emb j) k)
    refine congrArg (V c main_v21) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * k.val = k.val; omega
  · show V c main_arg5 (((cfg1.win 1).blk t).view.emb (BlockProduct.rhsEntry1 j k)) = V c main_arg5 (rhsAt1 (((cfg1.win 2).blk t).view.emb j) k)
    refine congrArg (V c main_arg5) ?_
    funext a; apply Fin.ext
    match a with
    | ⟨0, _⟩ => show win1_1.index t (0 : Fin 2) * 128 + 1 * k.val = k.val; omega
    | ⟨1, _⟩ => show win1_1.index t (1 : Fin 2) * 16 + 1 * (j 1).val = win1_2.index t (1 : Fin 2) * 16 + 1 * (j 1).val; omega

/-- An entry of the output array is in point `t`'s block iff each coordinate is in the block's range on its axis. -/
theorem mem_block1 (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v22).slice (win1_2.rect t)).set ↔ _
  rw [View.set_slice_whole, Rect.mem_set_unit]
  exact Iff.rfl

/-- The fifty blocks of 2000 rows tile the 100000 rows: row `r` is in the block of point `r / 2000`. -/
theorem covered1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  refine ⟨⟨(i 0).val / 2000, by show (i 0).val / 2000 < 50; omega⟩, flush1_2 _, ?_⟩
  rw [mem_block1]
  obtain ⟨-, -, -, -, e4, e5⟩ := blockIndex1 ⟨(i 0).val / 2000, by show (i 0).val / 2000 < 50; omega⟩
  intro a
  match a with
  | ⟨0, _⟩ => show win1_2.index _ (0 : Fin 2) * 2000 ≤ (i 0).val ∧ (i 0).val < win1_2.index _ (0 : Fin 2) * 2000 + 2000; rw [e4]; show (i 0).val / 2000 * 2000 ≤ (i 0).val ∧ (i 0).val < (i 0).val / 2000 * 2000 + 2000; omega
  | ⟨1, _⟩ => show win1_2.index _ (1 : Fin 2) * 16 ≤ (i 1).val ∧ (i 1).val < win1_2.index _ (1 : Fin 2) * 16 + 16; rw [e5]; omega

/-- After the region its output array is the product of the two arrays it was entered with, whole. -/
theorem array1 (V : (c : Dev nD) → (b : Ref sig .tc) → Buf (Elt Ideal) ((c : Thread nD τ).loc b)) (c : Dev nD) :
    (dat1 (F := Ideal) V c).arrAt 2 cfg1.N = product1 (V c main_v21) (V c main_arg5) :=
  (dat1 (F := Ideal) V c).arrAt_eq_of_cover 2 (product1 (V c main_v21) (V c main_arg5)) (fun t _ => flushed1 V c t) covered1

end Cert.KernelIdeal.RegionArray

end
-- ==== Proof.Network.lean ====
/-
  The two-layer network as one function of the seven arguments.

  `x` times `w1`, through the first layer (gather at the sources, scale by the edge weights, add at the targets, add the
  bias, `max(·, 0)`), times `w2`, through the second layer (the same sum, then the row-wise log-softmax). Both programs'
  results are stated as this one term, so that they are equal by being the same function of the same arguments.
-/
import proofs.«171190_j38628935860962_1_alg».proof.Proof.Layers
import proofs.«171190_j38628935860962_1_alg».proof.Proof.RegionArray

noncomputable section

namespace Cert.KernelIdeal.Network

open Cert.KernelIdeal Idealize.ShloMosaic

/-- log-softmax (A · max(A · (x · w1) + b1, 0) · w2 + b2) with A the weighted edge sum — over the exact extended reals. -/
def network (x : (⟨S100000x512, .f32⟩ : BufTy).Contents (Elt Ideal)) (ei : (⟨S2x1600000, .i32⟩ : BufTy).Contents (Elt Ideal))
    (ew : (⟨S1600000, .f32⟩ : BufTy).Contents (Elt Ideal)) (w1 : (⟨S512x128, .f32⟩ : BufTy).Contents (Elt Ideal))
    (b1 : (⟨S128, .f32⟩ : BufTy).Contents (Elt Ideal)) (w2 : (⟨S128x16, .f32⟩ : BufTy).Contents (Elt Ideal))
    (b2 : (⟨S16, .f32⟩ : BufTy).Contents (Elt Ideal)) : (⟨S100000x16, .f32⟩ : BufTy).Contents (Elt Ideal) :=
  Layers.layerTwo (F := Ideal)
    (RegionArray.product1 (Layers.layerOne (F := Ideal) (RegionArray.product0 x w1) ei ew b1) w2) ei ew b2

end Cert.KernelIdeal.Network

end
-- ==== Proof.KernelValue.lean ====
/-
  The idealized kernel's value.

  The result buffer is read out of the fold through the program's six segments, from the end: the last host operations
  leave the second layer's function of the second region's output array; that array is the product of what the region was
  entered with — the first layer's function of the first region's output array, and `w2` —; the first region's output
  array is the product of `x` and `w1` as launched. Every argument buffer read on the way holds what it held at launch:
  no host operation and no region writes an argument. So the program ends with the network's value of its arguments.
-/
import proofs.«171190_j38628935860962_1_alg».proof.Proof.WholeRun
import proofs.«171190_j38628935860962_1_alg».proof.Proof.Stretches
import proofs.«171190_j38628935860962_1_alg».proof.Proof.Network

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes keeps its contents over the stretch. -/
local macro "not_written" : tactic => `(tactic| (
  refine StableHlo.after_of_forall_not_mem _ _ (List.forall_iff_forall_mem.mp ?_)
  simp only [hostOps1, hostOps1_1, hostOps2, hostOps2_1, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The argument buffers along the fold -/

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by not_written
    _ = W1 m ρ c (Proc.devRef .tc main_arg1) := by not_written
    _ = W0 m ρ c (Proc.devRef .tc main_arg1) := W1_of_ne m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := W1_of_ne m ρ c main_arg2 (by decide)
    _ = m ((c : Thread nD τ).loc main_arg2) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by not_written
    _ = W1 m ρ c (Proc.devRef .tc main_arg5) := by not_written
    _ = W0 m ρ c (Proc.devRef .tc main_arg5) := W1_of_ne m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by not_written
    _ = W1 m ρ c (Proc.devRef .tc main_arg6) := by not_written
    _ = W0 m ρ c (Proc.devRef .tc main_arg6) := W1_of_ne m ρ c main_arg6 (by decide)
    _ = m ((c : Thread nD τ).loc main_arg6) := rfl

theorem W4_main_arg1 (c : Dev nD) : W4 m ρ c (Proc.devRef .tc main_arg1) = m ((c : Thread nD τ).loc main_arg1) :=
  (W4_of_ne m ρ c main_arg1 (by decide)).trans (W3_main_arg1 m ρ c)

theorem W4_main_arg2 (c : Dev nD) : W4 m ρ c (Proc.devRef .tc main_arg2) = m ((c : Thread nD τ).loc main_arg2) :=
  (W4_of_ne m ρ c main_arg2 (by decide)).trans (W3_main_arg2 m ρ c)

theorem W4_main_arg6 (c : Dev nD) : W4 m ρ c (Proc.devRef .tc main_arg6) = m ((c : Thread nD τ).loc main_arg6) :=
  (W4_of_ne m ρ c main_arg6 (by decide)).trans (W3_main_arg6 m ρ c)

/-! ## The two regions' output arrays, and the layers between them -/

/-- After the first region, its output buffer holds the product of `x` and `w1` as launched. -/
theorem firstProduct (c : Dev nD) :
    W1 m ρ c (Proc.devRef .tc main_v0)
      = RegionArray.product0 (m ((c : Thread nD τ).loc main_arg0)) (m ((c : Thread nD τ).loc main_arg3)) :=
  (W1_arr m ρ c 2).trans (RegionArray.array0 (V0 m ρ) c)

/-- The second region is entered with the first layer's function of that product. -/
theorem hidden (c : Dev nD) :
    W3 m ρ c (Proc.devRef .tc main_v21)
      = Layers.layerOne (F := Ideal) (RegionArray.product0 (m ((c : Thread nD τ).loc main_arg0)) (m ((c : Thread nD τ).loc main_arg3)))
          (m ((c : Thread nD τ).loc main_arg1)) (m ((c : Thread nD τ).loc main_arg2)) (m ((c : Thread nD τ).loc main_arg4)) := by
  refine (Stretches.first (W1 m ρ c)).trans ?_
  rw [firstProduct m ρ c]
  rfl

/-- After the second region, its output buffer holds the product of that and `w2`. -/
theorem secondProduct (c : Dev nD) :
    W4 m ρ c (Proc.devRef .tc main_v22)
      = RegionArray.product1
          (Layers.layerOne (F := Ideal) (RegionArray.product0 (m ((c : Thread nD τ).loc main_arg0)) (m ((c : Thread nD τ).loc main_arg3)))
            (m ((c : Thread nD τ).loc main_arg1)) (m ((c : Thread nD τ).loc main_arg2)) (m ((c : Thread nD τ).loc main_arg4)))
          (m ((c : Thread nD τ).loc main_arg5)) := by
  refine (W4_arr m ρ c 2).trans ((RegionArray.array1 (V3 m ρ) c).trans ?_)
  show RegionArray.product1 (W3 m ρ c (Proc.devRef .tc main_v21)) (W3 m ρ c (Proc.devRef .tc main_arg5)) = _
  rw [hidden m ρ c, W3_main_arg5 m ρ c]

/-- The result buffer ends at the network's value of the seven arguments as launched. -/
theorem result (c : Dev nD) :
    W6 m ρ c (Proc.devRef .tc main_v43)
      = Network.network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (Stretches.second (W4 m ρ c)).trans ?_
  rw [secondProduct m ρ c, W4_main_arg1 m ρ c, W4_main_arg2 m ρ c, W4_main_arg6 m ρ c]
  rfl

/-! ## The run -/

/-- Every weakly fair execution of the idealized kernel terminates with the result buffer at the network's value of the
    arguments, and the arguments unchanged. -/
theorem run : θ_run (defs (F := Ideal)) (onTc (τ := τ) (main (F := Ideal))) ⟨m, fun _ => 0, ρ⟩ fun r => ∀ c : Dev nD,
      r.2.mem ((c.tc : Thread nD τ).loc main_v43)
        = Network.network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r h c =>
      ⟨(h c main_v43 (by decide)).trans (result m ρ c),
       (h c main_arg0 (by decide)).trans (W6_main_arg0 m ρ c),
       (h c main_arg1 (by decide)).trans (W6_main_arg1 m ρ c),
       (h c main_arg2 (by decide)).trans (W6_main_arg2 m ρ c),
       (h c main_arg3 (by decide)).trans (W6_main_arg3 m ρ c),
       (h c main_arg4 (by decide)).trans (W6_main_arg4 m ρ c),
       (h c main_arg5 (by decide)).trans (W6_main_arg5 m ρ c),
       (h c main_arg6 (by decide)).trans (W6_main_arg6 m ρ c)⟩)
    (WholeRun.run_buffers (F := Ideal) m ρ)

end Cert.KernelIdeal.KernelValue

end
-- ==== Proof.RefValue.lean ====
/-
  The reference program's value.

  The reference is sixty-six host operations in a row: the first matrix product; the first layer's 23 operations up to
  its sum plus the bias, and the 3 of `max(·, 0)`; the second matrix product; the second layer's 23 operations, and the 15
  of the log-softmax. Read one part at a time — each part's last buffer as the part's function of the buffers it reads,
  every argument buffer left as it was, since no operation writes an argument — the result buffer ends at the network's
  value of the seven arguments: the SAME layer functions the idealized kernel's host operations compute, and each matrix
  product the entry-by-entry sum over the contracted index. Every weakly fair execution terminates there with the
  arguments unchanged.
-/
import proofs.«171190_j38628935860962_1_alg».proof.Proof.ReferenceOps
import proofs.«171190_j38628935860962_1_alg».proof.Proof.Network
import proofs.«171190_j38628935860962_1_alg».proof.Proof.LibTypedRef
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP

/-! ## Operations run one part after the other -/

theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The first matrix product (operation 1). -/
abbrev productA : List (HloOp τ sig (Elt Ideal)) := (ops (F := Ideal)).take 1
/-- The first layer up to its sum plus the bias (operations 2 to 24). -/
abbrev sumA : List (HloOp τ sig (Elt Ideal)) := ((ops (F := Ideal)).drop 1).take 23
/-- `max(·, 0)` (operations 25 to 27). -/
abbrev positiveA : List (HloOp τ sig (Elt Ideal)) := ((ops (F := Ideal)).drop 24).take 3
/-- The second matrix product (operation 28). -/
abbrev productB : List (HloOp τ sig (Elt Ideal)) := ((ops (F := Ideal)).drop 27).take 1
/-- The second layer up to its sum plus the bias (operations 29 to 51). -/
abbrev sumB : List (HloOp τ sig (Elt Ideal)) := ((ops (F := Ideal)).drop 28).take 23
/-- The log-softmax (operations 52 to 66). -/
abbrev softmaxB : List (HloOp τ sig (Elt Ideal)) := (ops (F := Ideal)).drop 51

theorem ops_parts : ops (F := Ideal) = productA ++ (sumA ++ (positiveA ++ (productB ++ (sumB ++ softmaxB)))) := rfl

/-- A buffer that no operation of a part writes keeps its contents over the part. -/
local macro "not_written" : tactic => `(tactic| (
  refine StableHlo.after_of_forall_not_mem _ _ (List.forall_iff_forall_mem.mp ?_)
  simp only [productA, sumA, positiveA, productB, sumB, softmaxB, ops, List.drop_succ_cons, List.drop_zero, List.take_succ_cons, List.take_zero,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What each part computes -/

theorem productA_result (V : Valuation τ sig (Elt Ideal)) :
    after productA V (Proc.devRef .tc main_v0)
      = Host.dotGeneral (F := Ideal) (φ₁ := .f32) (φ₂ := .f32) dot_S100000x512_S512x128_S100000x128_1_0_0_1_n_n none (V (Proc.devRef .tc main_arg0)) (V (Proc.devRef .tc main_arg3)) := by
  simp only [productA, ops, List.take_succ_cons, List.take_zero]
  after_results <;> rfl

set_option maxHeartbeats 8000000 in
theorem sumA_result (V : Valuation τ sig (Elt Ideal)) :
    after sumA V (Proc.devRef .tc main_v20)
      = Cert.KernelIdeal.Layers.layerOneSum (F := Ideal) (V (Proc.devRef .tc main_v0)) (V (Proc.devRef .tc main_arg1))
          (V (Proc.devRef .tc main_arg2)) (V (Proc.devRef .tc main_arg4)) := by
  simp only [sumA, ops, List.drop_succ_cons, List.drop_zero, List.take_succ_cons, List.take_zero]
  after_results_simp <;> rfl

theorem positiveA_result (V : Valuation τ sig (Elt Ideal)) :
    after positiveA V (Proc.devRef .tc main_v21)
      = Cert.KernelIdeal.Layers.positivePart (F := Ideal) (V (Proc.devRef .tc main_v20)) := by
  simp only [positiveA, ops, List.drop_succ_cons, List.drop_zero, List.take_succ_cons, List.take_zero]
  after_results_simp
  simp only [Cert.Lib.TypedRef.ofBuf_toBuf]
  rfl

theorem productB_result (V : Valuation τ sig (Elt Ideal)) :
    after productB V (Proc.devRef .tc main_v22)
      = Host.dotGeneral (F := Ideal) (φ₁ := .f32) (φ₂ := .f32) dot_S100000x128_S128x16_S100000x16_1_0_0_1_n_n none (V (Proc.devRef .tc main_v21)) (V (Proc.devRef .tc main_arg5)) := by
  simp only [productB, ops, List.drop_succ_cons, List.drop_zero, List.take_succ_cons, List.take_zero]
  after_results <;> rfl

set_option maxHeartbeats 8000000 in
theorem sumB_result (V : Valuation τ sig (Elt Ideal)) :
    after sumB V (Proc.devRef .tc main_v42)
      = Cert.KernelIdeal.Layers.layerTwoSum (F := Ideal) (V (Proc.devRef .tc main_v22)) (V (Proc.devRef .tc main_arg1))
          (V (Proc.devRef .tc main_arg2)) (V (Proc.devRef .tc main_arg6)) := by
  simp only [sumB, ops, List.drop_succ_cons, List.drop_zero, List.take_succ_cons, List.take_zero]
  after_results_simp <;> rfl

set_option maxHeartbeats 8000000 in
theorem softmaxB_result (V : Valuation τ sig (Elt Ideal)) :
    after softmaxB V (Proc.devRef .tc main_v43)
      = Cert.KernelIdeal.Layers.logSoftmax (F := Ideal) (V (Proc.devRef .tc main_v42)) := by
  simp only [softmaxB, ops, List.drop_succ_cons, List.drop_zero]
  after_results_simp
  simp only [Cert.Lib.TypedRef.ofBuf_toBuf]
  rfl

/-! ## No part writes an argument it is read after -/

theorem productA_keeps_arg1 (X : Valuation τ sig (Elt Ideal)) :
    after productA X (Proc.devRef .tc main_arg1) = X (Proc.devRef .tc main_arg1) := by not_written
theorem productA_keeps_arg2 (X : Valuation τ sig (Elt Ideal)) :
    after productA X (Proc.devRef .tc main_arg2) = X (Proc.devRef .tc main_arg2) := by not_written
theorem productA_keeps_arg4 (X : Valuation τ sig (Elt Ideal)) :
    after productA X (Proc.devRef .tc main_arg4) = X (Proc.devRef .tc main_arg4) := by not_written
theorem productA_keeps_arg5 (X : Valuation τ sig (Elt Ideal)) :
    after productA X (Proc.devRef .tc main_arg5) = X (Proc.devRef .tc main_arg5) := by not_written
theorem productA_keeps_arg6 (X : Valuation τ sig (Elt Ideal)) :
    after productA X (Proc.devRef .tc main_arg6) = X (Proc.devRef .tc main_arg6) := by not_written
theorem sumA_keeps_arg1 (X : Valuation τ sig (Elt Ideal)) :
    after sumA X (Proc.devRef .tc main_arg1) = X (Proc.devRef .tc main_arg1) := by not_written
theorem sumA_keeps_arg2 (X : Valuation τ sig (Elt Ideal)) :
    after sumA X (Proc.devRef .tc main_arg2) = X (Proc.devRef .tc main_arg2) := by not_written
theorem sumA_keeps_arg5 (X : Valuation τ sig (Elt Ideal)) :
    after sumA X (Proc.devRef .tc main_arg5) = X (Proc.devRef .tc main_arg5) := by not_written
theorem sumA_keeps_arg6 (X : Valuation τ sig (Elt Ideal)) :
    after sumA X (Proc.devRef .tc main_arg6) = X (Proc.devRef .tc main_arg6) := by not_written
theorem positiveA_keeps_arg1 (X : Valuation τ sig (Elt Ideal)) :
    after positiveA X (Proc.devRef .tc main_arg1) = X (Proc.devRef .tc main_arg1) := by not_written
theorem positiveA_keeps_arg2 (X : Valuation τ sig (Elt Ideal)) :
    after positiveA X (Proc.devRef .tc main_arg2) = X (Proc.devRef .tc main_arg2) := by not_written
theorem positiveA_keeps_arg5 (X : Valuation τ sig (Elt Ideal)) :
    after positiveA X (Proc.devRef .tc main_arg5) = X (Proc.devRef .tc main_arg5) := by not_written
theorem positiveA_keeps_arg6 (X : Valuation τ sig (Elt Ideal)) :
    after positiveA X (Proc.devRef .tc main_arg6) = X (Proc.devRef .tc main_arg6) := by not_written
theorem productB_keeps_arg1 (X : Valuation τ sig (Elt Ideal)) :
    after productB X (Proc.devRef .tc main_arg1) = X (Proc.devRef .tc main_arg1) := by not_written
theorem productB_keeps_arg2 (X : Valuation τ sig (Elt Ideal)) :
    after productB X (Proc.devRef .tc main_arg2) = X (Proc.devRef .tc main_arg2) := by not_written
theorem productB_keeps_arg6 (X : Valuation τ sig (Elt Ideal)) :
    after productB X (Proc.devRef .tc main_arg6) = X (Proc.devRef .tc main_arg6) := by not_written
theorem ops_keeps_arg0 (X : Valuation τ sig (Elt Ideal)) :
    after (ops (F := Ideal)) X (Proc.devRef .tc main_arg0) = X (Proc.devRef .tc main_arg0) := by not_written
theorem ops_keeps_arg1 (X : Valuation τ sig (Elt Ideal)) :
    after (ops (F := Ideal)) X (Proc.devRef .tc main_arg1) = X (Proc.devRef .tc main_arg1) := by not_written
theorem ops_keeps_arg2 (X : Valuation τ sig (Elt Ideal)) :
    after (ops (F := Ideal)) X (Proc.devRef .tc main_arg2) = X (Proc.devRef .tc main_arg2) := by not_written
theorem ops_keeps_arg3 (X : Valuation τ sig (Elt Ideal)) :
    after (ops (F := Ideal)) X (Proc.devRef .tc main_arg3) = X (Proc.devRef .tc main_arg3) := by not_written
theorem ops_keeps_arg4 (X : Valuation τ sig (Elt Ideal)) :
    after (ops (F := Ideal)) X (Proc.devRef .tc main_arg4) = X (Proc.devRef .tc main_arg4) := by not_written
theorem ops_keeps_arg5 (X : Valuation τ sig (Elt Ideal)) :
    after (ops (F := Ideal)) X (Proc.devRef .tc main_arg5) = X (Proc.devRef .tc main_arg5) := by not_written
theorem ops_keeps_arg6 (X : Valuation τ sig (Elt Ideal)) :
    after (ops (F := Ideal)) X (Proc.devRef .tc main_arg6) = X (Proc.devRef .tc main_arg6) := by not_written

/-! ### The first matrix product on the host -/

theorem dotLhsRow0 (i : S100000x128.Idx) (q : dot_S100000x512_S512x128_S100000x128_1_0_0_1_n_n.contr.Idx) : (dot_S100000x512_S512x128_S100000x128_1_0_0_1_n_n.lhsIdx i q 0).val = (i 0).val := by
  unfold DotDims.lhsIdx
  rw [dif_neg (show ¬(0 : Fin S100000x512.rank) ∈ dot_S100000x512_S512x128_S100000x128_1_0_0_1_n_n.lhsBatch by decide), dif_pos (show (0 : Fin S100000x512.rank) ∈ dot_S100000x512_S512x128_S100000x128_1_0_0_1_n_n.lhsNonContracting by decide)]
  rfl
theorem dotLhsCol0 (i : S100000x128.Idx) (q : dot_S100000x512_S512x128_S100000x128_1_0_0_1_n_n.contr.Idx) : (dot_S100000x512_S512x128_S100000x128_1_0_0_1_n_n.lhsIdx i q 1).val = (q ⟨0, by decide⟩).val :=
  dot_S100000x512_S512x128_S100000x128_1_0_0_1_n_n.lhsIdx_val_of_single rfl i q
theorem dotRhsRow0 (i : S100000x128.Idx) (q : dot_S100000x512_S512x128_S100000x128_1_0_0_1_n_n.contr.Idx) : (dot_S100000x512_S512x128_S100000x128_1_0_0_1_n_n.rhsIdx i q 0).val = (q ⟨0, by decide⟩).val :=
  dot_S100000x512_S512x128_S100000x128_1_0_0_1_n_n.rhsIdx_val_of_single rfl i q
theorem dotRhsCol0 (i : S100000x128.Idx) (q : dot_S100000x512_S512x128_S100000x128_1_0_0_1_n_n.contr.Idx) : (dot_S100000x512_S512x128_S100000x128_1_0_0_1_n_n.rhsIdx i q 1).val = (i 1).val := by
  unfold DotDims.rhsIdx
  rw [dif_neg (show ¬(1 : Fin S512x128.rank) ∈ dot_S100000x512_S512x128_S100000x128_1_0_0_1_n_n.rhsBatch by decide), dif_pos (show (1 : Fin S512x128.rank) ∈ dot_S100000x512_S512x128_S100000x128_1_0_0_1_n_n.rhsNonContracting by decide)]
  rfl

/-- Over the exact reals the host's contraction of the left matrix's columns against the right matrix's rows is the
    same entry-by-entry sum over `k` that the kernel's fifty blocks assemble. -/
theorem dot0_eq (x : (⟨S100000x512, .f32⟩ : BufTy).Contents (Elt Ideal)) (w : (⟨S512x128, .f32⟩ : BufTy).Contents (Elt Ideal)) :
    Host.dotGeneral (F := Ideal) (φ₁ := .f32) (φ₂ := .f32) dot_S100000x512_S512x128_S100000x128_1_0_0_1_n_n none x w = Cert.KernelIdeal.RegionArray.product0 x w := by
  funext i
  simp only [Host.dotGeneral]
  rw [Ideal.dotGeneral_apply, ← Equiv.sum_comp (ValueIdx.contrEquiv1 dot_S100000x512_S512x128_S100000x128_1_0_0_1_n_n 512 rfl rfl).symm]
  unfold Cert.KernelIdeal.RegionArray.product0
  refine Finset.sum_congr rfl fun k _ => ?_
  have hk := ValueIdx.contrEquiv1_symm_val dot_S100000x512_S512x128_S100000x128_1_0_0_1_n_n 512 rfl rfl k
  have el : dot_S100000x512_S512x128_S100000x128_1_0_0_1_n_n.lhsIdx i ((ValueIdx.contrEquiv1 dot_S100000x512_S512x128_S100000x128_1_0_0_1_n_n 512 rfl rfl).symm k) = Cert.KernelIdeal.RegionArray.lhsAt0 i k := funext fun a => Fin.ext (by
    match a with
    | ⟨0, _⟩ => exact dotLhsRow0 _ _
    | ⟨1, _⟩ => exact (dotLhsCol0 _ _).trans hk)
  have er : dot_S100000x512_S512x128_S100000x128_1_0_0_1_n_n.rhsIdx i ((ValueIdx.contrEquiv1 dot_S100000x512_S512x128_S100000x128_1_0_0_1_n_n 512 rfl rfl).symm k) = Cert.KernelIdeal.RegionArray.rhsAt0 i k := funext fun a => Fin.ext (by
    match a with
    | ⟨0, _⟩ => exact (dotRhsRow0 _ _).trans hk
    | ⟨1, _⟩ => exact dotRhsCol0 _ _)
  rw [el, er]

/-! ### The second matrix product on the host -/

theorem dotLhsRow1 (i : S100000x16.Idx) (q : dot_S100000x128_S128x16_S100000x16_1_0_0_1_n_n.contr.Idx) : (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch by decide), dif_pos (show (0 : Fin S100000x128.rank) ∈ dot_S100000x128_S128x16_S100000x16_1_0_0_1_n_n.lhsNonContracting by decide)]
  rfl
theorem dotLhsCol1 (i : S100000x16.Idx) (q : dot_S100000x128_S128x16_S100000x16_1_0_0_1_n_n.contr.Idx) : (dot_S100000x128_S128x16_S100000x16_1_0_0_1_n_n.lhsIdx i q 1).val = (q ⟨0, by decide⟩).val :=
  dot_S100000x128_S128x16_S100000x16_1_0_0_1_n_n.lhsIdx_val_of_single rfl i q
theorem dotRhsRow1 (i : S100000x16.Idx) (q : dot_S100000x128_S128x16_S100000x16_1_0_0_1_n_n.contr.Idx) : (dot_S100000x128_S128x16_S100000x16_1_0_0_1_n_n.rhsIdx i q 0).val = (q ⟨0, by decide⟩).val :=
  dot_S100000x128_S128x16_S100000x16_1_0_0_1_n_n.rhsIdx_val_of_single rfl i q
theorem dotRhsCol1 (i : S100000x16.Idx) (q : dot_S100000x128_S128x16_S100000x16_1_0_0_1_n_n.contr.Idx) : (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch by decide), dif_pos (show (1 : Fin S128x16.rank) ∈ dot_S100000x128_S128x16_S100000x16_1_0_0_1_n_n.rhsNonContracting by decide)]
  rfl

/-- Over the exact reals the host's contraction of the left matrix's columns against the right matrix's rows is the
    same entry-by-entry sum over `k` that the kernel's fifty blocks assemble. -/
theorem dot1_eq (x : (⟨S100000x128, .f32⟩ : BufTy).Contents (Elt Ideal)) (w : (⟨S128x16, .f32⟩ : BufTy).Contents (Elt Ideal)) :
    Host.dotGeneral (F := Ideal) (φ₁ := .f32) (φ₂ := .f32) dot_S100000x128_S128x16_S100000x16_1_0_0_1_n_n none x w = Cert.KernelIdeal.RegionArray.product1 x w := by
  funext i
  simp only [Host.dotGeneral]
  rw [Ideal.dotGeneral_apply, ← Equiv.sum_comp (ValueIdx.contrEquiv1 dot_S100000x128_S128x16_S100000x16_1_0_0_1_n_n 128 rfl rfl).symm]
  unfold Cert.KernelIdeal.RegionArray.product1
  refine Finset.sum_congr rfl fun k _ => ?_
  have hk := ValueIdx.contrEquiv1_symm_val dot_S100000x128_S128x16_S100000x16_1_0_0_1_n_n 128 rfl rfl k
  have el : dot_S100000x128_S128x16_S100000x16_1_0_0_1_n_n.lhsIdx i ((ValueIdx.contrEquiv1 dot_S100000x128_S128x16_S100000x16_1_0_0_1_n_n 128 rfl rfl).symm k) = Cert.KernelIdeal.RegionArray.lhsAt1 i k := funext fun a => Fin.ext (by
    match a with
    | ⟨0, _⟩ => exact dotLhsRow1 _ _
    | ⟨1, _⟩ => exact (dotLhsCol1 _ _).trans hk)
  have er : dot_S100000x128_S128x16_S100000x16_1_0_0_1_n_n.rhsIdx i ((ValueIdx.contrEquiv1 dot_S100000x128_S128x16_S100000x16_1_0_0_1_n_n 128 rfl rfl).symm k) = Cert.KernelIdeal.RegionArray.rhsAt1 i k := funext fun a => Fin.ext (by
    match a with
    | ⟨0, _⟩ => exact (dotRhsRow1 _ _).trans hk
    | ⟨1, _⟩ => exact dotRhsCol1 _ _)
  rw [el, er]

/-! ## The value, and the run -/

/-- From any buffer contents, the sixty-six operations leave the result buffer at the network's value of the seven
    argument buffers. -/
theorem value (V : Valuation τ sig (Elt Ideal)) :
    after (ops (F := Ideal)) V (Proc.devRef .tc main_v43)
      = Cert.KernelIdeal.Network.network (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  rw [ops_parts]
  simp only [after_append]
  rw [softmaxB_result, sumB_result]
  rw [productB_result, productB_keeps_arg1, productB_keeps_arg2, productB_keeps_arg6]
  rw [positiveA_result, positiveA_keeps_arg5, positiveA_keeps_arg1, positiveA_keeps_arg2, positiveA_keeps_arg6]
  rw [sumA_result, sumA_keeps_arg5, sumA_keeps_arg1, sumA_keeps_arg2, sumA_keeps_arg6]
  rw [productA_result, productA_keeps_arg1, productA_keeps_arg2, productA_keeps_arg4, productA_keeps_arg5, productA_keeps_arg6]
  rw [dot0_eq, dot1_eq]
  rfl

/-- Every weakly fair execution of the reference terminates with the result buffer at the network's value of the
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
        = Cert.KernelIdeal.Network.network (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
      ⟨(h c main_v43).trans (value (launchContents m c)),
       (h c main_arg0).trans (ops_keeps_arg0 (launchContents m c)),
       (h c main_arg1).trans (ops_keeps_arg1 (launchContents m c)),
       (h c main_arg2).trans (ops_keeps_arg2 (launchContents m c)),
       (h c main_arg3).trans (ops_keeps_arg3 (launchContents m c)),
       (h c main_arg4).trans (ops_keeps_arg4 (launchContents m c)),
       (h c main_arg5).trans (ops_keeps_arg5 (launchContents m c)),
       (h c main_arg6).trans (ops_keeps_arg6 (launchContents m c))⟩)
    (run_seq scopedRefs_eq scopedSems_eq (defs (F := Ideal)) (main (F := Ideal)) (fun _ => ops (F := Ideal)) main_eq (fun _ => ops_sub) m ρ)

end Cert.ReferenceIdeal.RefValue

end
-- ==== Proof.lean ====
/-
  A two-layer graph convolution, a tiled kernel against plain array code.

  Both programs compute, for node features `x` (100000 × 512), an edge list (sources and targets of 1600000 edges), edge
  weights, and two weight matrices and biases,
      log-softmax ( A · max( A · (x · W1) + b1 , 0 ) · W2 + b2 ),
  where `A · h` adds, into row `n`, the rows of `h` at the sources of the edges whose target is `n`, each scaled by its
  edge's weight. The reference takes the two matrix products `x · W1` and `h · W2` whole, on the host. The kernel takes
  each in a grid of fifty points: point `t` loads rows 2000·t … 2000·t + 1999 of the left matrix and the whole right
  matrix, changes both to bf16, multiplies them into a zero accumulator and writes back the same rows of the product.
  Everything else — the gathers, the weighted sums at the targets, the biases, `max(·, 0)`, the log-softmax — is the same
  sequence of host operations in both programs.

  Over the exact extended reals a change of float format is the identity and a product accumulated into zero is the plain
  sum over the contracted index, so each point's block is, entry by entry, the sum over `k` of left (r, k) · right (k, n):
  the very sum the host's contraction takes, term for term and in the same order. The fifty blocks tile the 100000 rows, so
  each region's output array IS the whole product. The host operations around the regions are the layers' functions of
  that array, and the reference's operations are the same functions of its product. Hence both programs end at ONE
  function of the seven arguments, and from memories agreeing on the arguments their results are equal. No law used here
  needs the inputs to be finite: nothing is distributed, cancelled or moved across a sum.

  The two kernels' frames are the generated frame certificates; the reference's frame is its run with the value
  forgotten; the idealization rewrote no operation, so there is nothing to preserve.
-/
import proofs.«171190_j38628935860962_1_alg».proof.Defs
import proofs.«171190_j38628935860962_1_alg».proof.Proof.Gen.Kernel
import proofs.«171190_j38628935860962_1_alg».proof.Proof.Gen.Kernel.Frame
import proofs.«171190_j38628935860962_1_alg».proof.Proof.Gen.KernelIdeal
import proofs.«171190_j38628935860962_1_alg».proof.Proof.Gen.KernelIdeal.Frame
import proofs.«171190_j38628935860962_1_alg».proof.Proof.Gen.ReferenceIdeal
import proofs.«171190_j38628935860962_1_alg».proof.Proof.Gen.Pre_finite_inputs
import proofs.«171190_j38628935860962_1_alg».proof.Proof.KernelValue
import proofs.«171190_j38628935860962_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the value forgotten. -/
theorem frame_referenceIdeal : Cert.frame_ReferenceIdeal := fun m ρ _ =>
  (θ_run (Cert.ReferenceIdeal.defs (F := Ideal)) _ _).mono (fun _ h c => (h c).2) (Cert.ReferenceIdeal.RefValue.run m ρ)

/-- The idealization rewrote no operation. -/
theorem preserves : Cert.preserves_Kernel_KernelIdeal := trivial

/-- From memories agreeing on the seven arguments both idealized programs end with the network's value of those
    arguments in their result buffer, and with the arguments unchanged. -/
theorem algebraic : Cert.algebraic_KernelIdeal_ReferenceIdeal := by
  intro m ρ m' ρ' _ hagree
  refine ⟨_, Cert.KernelIdeal.KernelValue.run m ρ, ?_⟩
  refine (θ_run (Cert.ReferenceIdeal.defs (F := Ideal)) _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
